-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8192x256 .f32) (main_arg1 : FVec F S8192x256 .f32) (main_arg2 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8192x256 : Shape := ⟨2, ![8192, 256]⟩
abbrev S256x256 : Shape := ⟨2, ![256, 256]⟩
abbrev S8192x8192 : Shape := ⟨2, ![8192, 8192]⟩
abbrev S1024x256 : Shape := ⟨2, ![1024, 256]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S8192x256, .f32⟩
  | .local _ .vmem, ⟨4, _⟩ => ⟨S1024x1024, .f32⟩
  | .local _ .vmem, ⟨5, _⟩ => ⟨S1024x1024, .f32⟩
  | .local _ .vmem, ⟨6, _⟩ => ⟨S1024x256, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1024x1024_S1024x1024_0_0 : ∀ a, (![0, 0] : Fin 2 → Nat) a + S1024x1024.size a ≤ S1024x1024.size a
  h_S1024x1024 : 0 < S1024x1024.numel
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .f32 = 32 ∨ (Rect.block (s := S8192x256) S8192x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x256, .f32⟩
  | .hbm, ⟨3, _⟩ => ⟨S256x256, .f32⟩
  | .hbm, ⟨4, _⟩ => ⟨S8192x256, .f32⟩
  | .hbm, ⟨5, _⟩ => ⟨S256x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S256x256_S256x256_1_0 : S256x256.Transposes [1, 0] S256x256
  transposes_S8192x256_S256x8192_1_0 : S8192x256.Transposes [1, 0] S256x8192
  bcast_S_S8192x8192 : S_.BroadcastsInDim S8192x8192 (![] : Fin 0 → Fin S8192x8192.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BodyValues.lean ====
/-
  What one run of the kernel body leaves behind, as values.

  The body has two cases.  At the first point of a row of the grid (column coordinate 0) it first fills the carried
  buffer with the projection of the point's block of x — the block times the transpose of w — and then, like every
  other point, takes 1024 rows of y, multiplies the carried buffer by their transpose and stores the logistic of
  the product as its output block.  At the other points the carried buffer is used as the point before left it.
  Each store covers its whole buffer, so what the body leaves is the stored payload itself:
      the carried buffer      = the projection of (x block, w)                       (first point of a row only),
      the output block        = logistic-of-product of (rows of y, carried buffer).
  In the first case the carried buffer the second product reads is the one just stored.
-/
import proofs.«100877_j70171175682175_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The 1024 rows of y the point works on: rows 1024·j … 1024·j + 1023 of the whole array, j the point's column
    coordinate. -/
abbrev ySlab (i : grid0.Coords) (x2 : Vec F S8192x256 .f32) : Vec F S1024x256 .f32 :=
  View.ld x2 (Rect.unit (s := S8192x256) (k0_off1 i) S1024x256.size (k0_off1_inb i))

/-- First point of a row: the carried buffer ends at the projection of the x block. -/
theorem carried_first (c : Dev nD) (i : grid0.Coords) (arg2 : Memref sig .tc .vmem S1024x256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S1024x1024 .f32) (harg5 : arg5.IsWhole) (arg6 : Memref sig .tc .vmem S1024x256 .bf16) (harg6 : arg6.IsWhole) (hc0 : cond0_0 i)
    (x0 : Vec F S1024x256 .f32) (x1 : Vec F S256x256 .f32) (x2 : Vec F S8192x256 .f32) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz]
  simp only [View.readAt_eq_ld, harg2.read_unread, harg3.read_unread, View.ld_unit_zero (S := S1024x256) hz,
    View.ld_unit_zero (S := S256x256) hz]

/-- First point of a row: the output block is computed from the projection just stored. -/
theorem block_first (c : Dev nD) (i : grid0.Coords) (arg2 : Memref sig .tc .vmem S1024x256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S1024x1024 .f32) (harg5 : arg5.IsWhole) (arg6 : Memref sig .tc .vmem S1024x256 .bf16) (harg6 : arg6.IsWhole) (hc0 : cond0_0 i)
    (x0 : Vec F S1024x256 .f32) (x1 : Vec F S256x256 .f32) (x2 : Vec F S8192x256 .f32) :
    out0_A_3 c i arg2 harg2 arg3 harg3 arg4 harg4 arg5 harg5 arg6 harg6 hc0 x0 x1 x2 = k0_pay2 (ySlab i x2) (k0_pay1 x0 x1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz]
  simp only [View.readCov_unit_zero (S := S1024x256) _ hz, View.readAt_eq_ld, harg2.read_unread, harg3.read_unread,
    harg4.read_unread, View.ld_unit_zero (S := S1024x256) hz, View.ld_unit_zero (S := S256x256) hz]
  rfl

/-- Any other point: the output block is computed from the carried buffer as the point before left it. -/
theorem block_later (c : Dev nD) (i : grid0.Coords) (arg2 : Memref sig .tc .vmem S1024x256 .f32) (harg2 : arg2.IsWhole) (arg3 : Memref sig .tc .vmem S256x256 .f32) (harg3 : arg3.IsWhole) (arg4 : Memref sig .tc .vmem S8192x256 .f32) (harg4 : arg4.IsWhole) (arg5 : Memref sig .tc .vmem S1024x1024 .f32) (harg5 : arg5.IsWhole) (arg6 : Memref sig .tc .vmem S1024x256 .bf16) (harg6 : arg6.IsWhole) (hc0 : ¬cond0_0 i)
    (x0 : Vec F S1024x256 .f32) (x1 : Vec F S256x256 .f32) (x2 : Vec F S8192x256 .f32) (xs0 : Vec F S1024x256 .bf16) :
    out0_B_3 c i arg2 harg2 arg3 harg3 arg4 harg4 arg5 harg5 arg6 harg6 hc0 x0 x1 x2 xs0 = k0_pay2 (ySlab i x2) xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz]
  simp only [View.readAt_eq_ld, harg4.read_unread, harg6.read_unread, View.ld_unit_zero (S := S1024x256) hz]

end Cert.KernelIdeal.Body

end
-- ==== Proof.GridReads.lean ====
/-
  Where each point of the 8 × 8 grid reads, in the coordinates of the whole arrays.

  Point t has row coordinate t / 8 and column coordinate t % 8.  Its block of x is rows 1024·(t/8) … of x, its
  block of w is all of w, its window on y is all of y, out of which the body takes rows 1024·(t%8) …, and its output
  block is rows 1024·(t/8) … by columns 1024·(t%8) … of the result.
-/
import proofs.«100877_j70171175682175_2_alg».proof.Proof.BodyValues
import Idealize.ShloMosaic.Lib.ValueIdx

noncomputable section

namespace Cert.KernelIdeal.Grid

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The grid has 64 points. -/
theorem points : cfg0.N = 64 := N_0

/-- The printed index maps, decided once over the 64 points. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = t.val % 8
    ∧ ((grid0.coords t) 1).val = t.val % 8 :=
  (by decide +kernel : ∀ t : Fin grid0.N, _)

/-- Row p of the point's row of blocks, as a row of the whole array: 1024·(t/8) + p. -/
def blockRow (t : Fin cfg0.N) (p : Fin 1024) : Fin 8192 :=
  ⟨1024 * (t.val / 8) + p.val, by have h1 := t.isLt; have h2 := points; have h3 := p.isLt; omega⟩

/-- Column q of the point's column of blocks, as a row of y (a column of the result): 1024·(t%8) + q. -/
def blockCol (t : Fin cfg0.N) (q : Fin 1024) : Fin 8192 :=
  ⟨1024 * (t.val % 8) + q.val, by have h3 := q.isLt; omega⟩

/-- The point's block of x at (p, k) is x at (1024·(t/8) + p, k). -/
theorem xblock_entry (c : Dev nD) (t : Fin cfg0.N) (p : Fin 1024) (k : Fin 256) :
    (iblk m c 0 t : Vec F S1024x256 .f32) (ix2 p k) = V m c main_arg0 (ix2 (blockRow t p) k) := by
  obtain ⟨e0, e1, -⟩ := idx_facts t
  show V m c main_arg0 (((cfg0.win 0).blk t).view.emb (ix2 p k)) = V m c main_arg0 (ix2 (blockRow t p) k)
  congr 1
  funext a; apply Fin.ext
  match a with
  | ⟨0, _⟩ => show win0_0.index t (0 : Fin 2) * 1024 + 1 * p.val = 1024 * (t.val / 8) + p.val; omega
  | ⟨1, _⟩ => show win0_0.index t (1 : Fin 2) * 256 + 1 * k.val = k.val; omega

/-- The point's block of w is all of w. -/
theorem wblock_entry (c : Dev nD) (t : Fin cfg0.N) (d k : Fin 256) :
    (iblk m c 1 t : Vec F S256x256 .f32) (ix2 d k) = V m c main_arg2 (ix2 d k) := by
  obtain ⟨-, -, e2, e3, -⟩ := idx_facts t
  show V m c main_arg2 (((cfg0.win 1).blk t).view.emb (ix2 d k)) = V m c main_arg2 (ix2 d k)
  congr 1
  funext a; apply Fin.ext
  match a with
  | ⟨0, _⟩ => show win0_1.index t (0 : Fin 2) * 256 + 1 * d.val = d.val; omega
  | ⟨1, _⟩ => show win0_1.index t (1 : Fin 2) * 256 + 1 * k.val = k.val; omega

/-- The rows of y the body takes at the point, at (q, d), are y at (1024·(t%8) + q, d). -/
theorem yrows_entry (c : Dev nD) (t : Fin cfg0.N) (q : Fin 1024) (d : Fin 256) :
    Body.ySlab (grid0.coords t) (iblk m c 2 t : Vec F S8192x256 .f32) (ix2 q d)
      = V m c main_arg1 (ix2 (blockCol t q) d) := by
  obtain ⟨-, -, -, -, e4, e5, -, -, e8⟩ := idx_facts t
  have eo := k0_off1_eq (grid0.coords t)
  show V m c main_arg1 (((cfg0.win 2).blk t).view.emb
    ((Rect.unit (s := S8192x256) (k0_off1 (grid0.coords t)) S1024x256.size (k0_off1_inb (grid0.coords t))).idx (ix2 q d)))
      = V m c main_arg1 (ix2 (blockCol t q) d)
  congr 1
  funext a; apply Fin.ext
  match a with
  | ⟨0, _⟩ =>
    show win0_2.index t (0 : Fin 2) * 8192 + 1 * (k0_off1 (grid0.coords t) 0 + 1 * q.val) = 1024 * (t.val % 8) + q.val
    rw [eo]
    show win0_2.index t (0 : Fin 2) * 8192 + 1 * (1024 * ((grid0.coords t) 1).val + 1 * q.val) = 1024 * (t.val % 8) + q.val
    omega
  | ⟨1, _⟩ =>
    show win0_2.index t (1 : Fin 2) * 256 + 1 * (k0_off1 (grid0.coords t) 1 + 1 * d.val) = d.val
    rw [eo]
    show win0_2.index t (1 : Fin 2) * 256 + 1 * (0 + 1 * d.val) = d.val
    omega

end Cert.KernelIdeal.Grid

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.BodyEntries.lean ====
/-
  The body's two payloads read at an entry, over the extended reals.

  At the ideal instance a change of float format is the identity and a whole-shape cast changes nothing, so
      the projection payload at (p, d)   = Σ_k xblock[p,k] · w[d,k],
      the output payload at (p, q)       = logistic (Σ_d carried[p,d] · yrows[q,d]),
  each product being a matrix times the transpose of another, accumulated into zeros.
-/
import proofs.«100877_j70171175682175_2_alg».proof.Proof.Gen.KernelIdeal.Skeleton
import proofs.«100877_j70171175682175_2_alg».proof.Proof.LibMatmulNT
import Idealize.ShloMosaic.Lib.Pipeline.Value

noncomputable section

namespace Cert.KernelIdeal.Entries

open Cert.KernelIdeal Cert.KernelIdeal.Gen Idealize.ShloMosaic Idealize.ShloMosaic.ValueIdx

/-- The projection payload at (p, d): row p of the x block against row d of w. -/
theorem projection_entry (x0 : Vec Ideal S1024x256 .f32) (x1 : Vec Ideal S256x256 .f32) (p : Fin 1024) (d : Fin 256) :
    k0_pay1 (F := Ideal) x0 x1 (ix2 p d) = ∑ k : Fin 256, x0 (ix2 p k) * x1 (ix2 d k) := by
  unfold k0_pay1
  refine (congrFun (shapeCast_self _ _) _).trans ?_
  exact Cert.MatmulNT.matmul_zero_apply dot_S1024x256_S256x256_S1024x256_1_1_0_0_n_n rfl none _ _ p d

/-- The output payload at (p, q): the logistic of row p of the carried buffer against row q of the rows of y. -/
theorem block_entry (v6 : Vec Ideal S1024x256 .f32) (v8 : Vec Ideal S1024x256 .bf16) (p q : Fin 1024) :
    k0_pay2 (F := Ideal) v6 v8 (ix2 p q) = Ideal.logistic (∑ d : Fin 256, v8 (ix2 p d) * v6 (ix2 q d)) := by
  unfold k0_pay2
  exact congrArg Ideal.logistic
    (Cert.MatmulNT.matmul_zero_apply dot_S1024x256_S1024x256_S1024x1024_1_1_0_0_n_n rfl none _ _ p q)

end Cert.KernelIdeal.Entries

end
-- ==== Proof.ScoreSpec.lean ====
/-
  The function both programs compute, entry by entry, over the extended reals.

  For arrays x, y of 8192 rows by 256 columns and a 256 by 256 matrix w, the projected rows are
      proj x w r d = Σ_k x[r,k] · w[d,k]                        (x times the transpose of w),
  and the result at (r, s) is the logistic function of the inner product of projected row r with row s of y:
      score x y w (r, s) = logistic (Σ_d proj x w r d · y[s,d]).
  Both sums are finite sums of extended reals taken in one fixed association (the inner sum first), so nothing
  about finiteness of the entries is needed to compare two programs that both compute exactly this.
-/
import Idealize.ShloMosaic.PureOps.Ideal
import Idealize.ShloMosaic.Lib.ValueIdx

noncomputable section

namespace Cert.Score

open Idealize.ShloMosaic Idealize.ShloMosaic.ValueIdx

/-- Row r of x times the transpose of w, at column d: Σ_k x[r,k] · w[d,k]. -/
def proj (x : (⟨2, ![8192, 256]⟩ : Shape).Idx → EReal) (w : (⟨2, ![256, 256]⟩ : Shape).Idx → EReal)
    (r : Fin 8192) (d : Fin 256) : EReal :=
  ∑ k : Fin 256, x (ix2 r k) * w (ix2 d k)

/-- The logistic of the inner product of projected row r with row s of y. -/
def score (x y : (⟨2, ![8192, 256]⟩ : Shape).Idx → EReal) (w : (⟨2, ![256, 256]⟩ : Shape).Idx → EReal) :
    (⟨2, ![8192, 8192]⟩ : Shape).Idx → EReal :=
  fun i => Ideal.logistic (∑ d : Fin 256, proj x w (i 0) d * y (ix2 (i 1) d))

theorem score_apply (x y : (⟨2, ![8192, 256]⟩ : Shape).Idx → EReal) (w : (⟨2, ![256, 256]⟩ : Shape).Idx → EReal)
    (r s : Fin 8192) :
    score x y w (ix2 r s) = Ideal.logistic (∑ d : Fin 256, proj x w r d * y (ix2 s d)) := rfl

end Cert.Score

end
-- ==== Proof.CarriedProjection.lean ====
/-
  What the carried buffer and the output blocks hold after each point of the grid, over the extended reals.

  Write X, Y, W for the three argument arrays as the region finds them.  By induction along a row of the grid the
  carried buffer after point t holds the projected rows of t's row of blocks,
      carried(t)[p,d] = proj X W (1024·(t/8) + p) d :
  the first point of the row (t % 8 = 0) stores exactly this, and every later point of the row leaves the buffer
  alone while t/8 does not change.  Every point's output block is the logistic of the carried buffer against its
  rows of Y, so at (p, q) it is score X Y W at row 1024·(t/8) + p and column 1024·(t%8) + q.
-/
import proofs.«100877_j70171175682175_2_alg».proof.Proof.GridReads
import proofs.«100877_j70171175682175_2_alg».proof.Proof.BodyEntries
import proofs.«100877_j70171175682175_2_alg».proof.Proof.ScoreSpec

noncomputable section

namespace Cert.KernelIdeal.Carried

open Cert.KernelIdeal Cert.KernelIdeal.Gen Idealize.ShloMosaic Idealize.ShloMosaic.TcCoe Idealize.SL.Sem
open Idealize.ShloMosaic.ValueIdx Cert.KernelIdeal.Grid

variable (m : (ℓ : Loc nD τ sig) → Buf (Elt Ideal) ℓ)

/-- The projection of the point's block of x, at (p, d), is the projected row 1024·(t/8) + p of X at d. -/
theorem projection_at (c : Dev nD) (t : Fin cfg0.N) (p : Fin 1024) (d : Fin 256) :
    k0_pay1 (F := Ideal) (iblk m c 0 t) (iblk m c 1 t) (ix2 p d)
      = Cert.Score.proj (V m c main_arg0) (V m c main_arg2) (blockRow t p) d := by
  refine (Entries.projection_entry (iblk m c 0 t) (iblk m c 1 t) p d).trans ?_
  unfold Cert.Score.proj
  exact Finset.sum_congr rfl fun k _ => by rw [xblock_entry m c t p k, wblock_entry m c t d k]

/-- At the first point of a row the carried buffer ends at the projected rows of that row of blocks. -/
theorem carried_first_entry (c : Dev nD) (t : Fin cfg0.N) (h0 : t.val % 8 = 0) (p : Fin 1024) (d : Fin 256) :
    (outsAt0 m c t.val t.isLt).2 (ix2 p d)
      = Cert.Score.proj (V m c main_arg0) (V m c main_arg2) (blockRow t p) d := by
  rw [outsAt0_A m c t h0]
  dsimp only
  refine (congrFun (Body.carried_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0)
    (iblk m c 0 t) (iblk m c 1 t) (iblk m c 2 t)) (ix2 p d)).trans ?_
  exact projection_at m c t p d

/-- After every point the carried buffer holds the projected rows of the point's row of blocks. -/
theorem carried_entry (c : Dev nD) : ∀ (n : ℕ) (h : n < cfg0.N) (p : Fin 1024) (d : Fin 256),
    (outsAt0 m c n h).2 (ix2 p d)
      = Cert.Score.proj (V m c main_arg0) (V m c main_arg2) (blockRow ⟨n, h⟩ p) d
  | 0, h, p, d => carried_first_entry m c ⟨0, h⟩ rfl p d
  | n + 1, h, p, d => by
    by_cases h0 : (n + 1) % 8 = 0
    · exact carried_first_entry m c ⟨n + 1, h⟩ h0 p d
    · rw [outsAt0_B m c ⟨n + 1, h⟩ h0]
      dsimp only
      show (outsAt0 m c n (Nat.lt_of_succ_lt h)).2 (ix2 p d) = _
      rw [carried_entry c n (Nat.lt_of_succ_lt h) p d]
      congr 1
      exact Fin.ext (by show 1024 * (n / 8) + p.val = 1024 * ((n + 1) / 8) + p.val; omega)

/-- Every point's output block at (p, q) is score at row 1024·(t/8) + p and column 1024·(t%8) + q. -/
theorem block_value (c : Dev nD) (t : Fin cfg0.N) (p q : Fin 1024) :
    (outsAt0 m c t.val t.isLt).1 (ix2 p q)
      = Cert.Score.score (V m c main_arg0) (V m c main_arg1) (V m c main_arg2) (ix2 (blockRow t p) (blockCol t q)) := by
  rw [Cert.Score.score_apply]
  by_cases h0 : t.val % 8 = 0
  · rw [outsAt0_A m c t h0]
    dsimp only
    refine (congrFun (Body.block_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0)
      (iblk m c 0 t) (iblk m c 1 t) (iblk m c 2 t)) (ix2 p q)).trans ?_
    refine (Entries.block_entry _ _ p q).trans ?_
    refine congrArg Ideal.logistic (Finset.sum_congr rfl fun d _ => ?_)
    rw [yrows_entry m c t q d, projection_at m c t p d]
  · rw [outsAt0_B m c t h0]
    dsimp only
    refine (congrFun (Body.block_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h))
      (iblk m c 0 t) (iblk m c 1 t) (iblk m c 2 t)
      (outsAt0 m c (t.val - 1) (Nat.lt_of_le_of_lt (Nat.sub_le _ _) t.isLt)).2) (ix2 p q)).trans ?_
    refine (Entries.block_entry _ _ p q).trans ?_
    refine congrArg Ideal.logistic (Finset.sum_congr rfl fun d _ => ?_)
    rw [yrows_entry m c t q d, carried_entry m c (t.val - 1) (Nat.lt_of_le_of_lt (Nat.sub_le _ _) t.isLt) p d]
    congr 2
    exact Fin.ext (by show 1024 * ((t.val - 1) / 8) + p.val = 1024 * (t.val / 8) + p.val; omega)

end Cert.KernelIdeal.Carried

end
-- ==== Proof.ScoreBlocks.lean ====
/-
  From blocks to the whole result: after the run the kernel's result array is `score` of the three arguments.

  Point t writes back its 1024 × 1024 output block, which is `score` restricted to rows 1024·(t/8) … and columns
  1024·(t%8) …; the 64 blocks tile the 8192 × 8192 result (the entry (r, s) lies in the block of the point
  8·(r/1024) + s/1024), so the array ends at `score` everywhere.
-/
import proofs.«100877_j70171175682175_2_alg».proof.Proof.CarriedProjection
import proofs.«100877_j70171175682175_2_alg».proof.Proof.Gen.KernelIdeal.Value

noncomputable section

namespace Cert.KernelIdeal.ScoreValue

open Cert.KernelIdeal Cert.KernelIdeal.Gen Idealize.ShloMosaic Idealize.ShloMosaic.TcCoe Idealize.SL.Sem
open Idealize.ShloMosaic.ValueIdx Cert.KernelIdeal.Grid
open Idealize.ShloMosaic.Pipeline (Dat)

variable (m : (ℓ : Loc nD τ sig) → Buf (Elt Ideal) ℓ) (ρ : Dev nD → PrngReg)

/-- The result: `score` of the argument arrays as launched. -/
abbrev result (c : Dev nD) : Buf (Elt Ideal) ((c : Thread nD τ).loc main_v0) :=
  Cert.Score.score (m ((c : Thread nD τ).loc main_arg0)) (m ((c : Thread nD τ).loc main_arg1))
    (m ((c : Thread nD τ).loc main_arg2))

/-- What point t writes back is block t of the result. -/
theorem flushed_eq (c : Dev nD) (t : Fin cfg0.N) :
    (dats m 0 c).flushed 3 t = ((cfg0.win 3).blk t).view.read (Elt Ideal) (result m c) := by
  rw [Cert.KernelIdeal.Value.flushed3]
  obtain ⟨-, -, -, -, -, -, e6, e7, -⟩ := idx_facts t
  funext j
  show (outsAt0 m c t.val t.isLt).1 j = result m c (((cfg0.win 3).blk t).view.emb j)
  obtain ⟨p, q, rfl⟩ : ∃ (p q : Fin 1024), j = ix2 p q := ⟨j 0, j 1, eq_ix2 j⟩
  refine (Carried.block_value m c t p q).trans ?_
  show result m c _ = result m c _
  congr 1
  funext a; apply Fin.ext
  match a with
  | ⟨0, _⟩ => show 1024 * (t.val / 8) + p.val = win0_3.index t (0 : Fin 2) * 1024 + 1 * p.val; omega
  | ⟨1, _⟩ => show 1024 * (t.val % 8) + q.val = win0_3.index t (1 : Fin 2) * 1024 + 1 * q.val; omega

/-- An entry of the result is in point t's block iff each coordinate is in the block's range on its axis. -/
theorem mem_block (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Every pair of block coordinates is some point's. -/
theorem point_of (a b : ℕ) (ha : a < 8) (hb : b < 8) :
    ∃ t : Fin cfg0.N, win0_3.index t (0 : Fin 2) = a ∧ win0_3.index t (1 : Fin 2) = b := by
  have hN := points
  have hlt : 8 * a + b < cfg0.N := by omega
  obtain ⟨-, -, -, -, -, -, e6, e7, -⟩ := idx_facts (⟨8 * a + b, hlt⟩ : Fin cfg0.N)
  have e6' : win0_3.index (⟨8 * a + b, hlt⟩ : Fin cfg0.N) (0 : Fin 2) = (8 * a + b) / 8 := e6
  have e7' : win0_3.index (⟨8 * a + b, hlt⟩ : Fin cfg0.N) (1 : Fin 2) = (8 * a + b) % 8 := e7
  exact ⟨⟨8 * a + b, hlt⟩, by omega, by omega⟩

/-- The 64 blocks tile the result. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, h0, h1⟩ := point_of ((i 0).val / 1024) ((i 1).val / 1024) (by omega) (by omega)
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run. -/
theorem final (c : Dev nD) : (dats m 0 c).arrAt 3 cfg0.N = result m c :=
  (dats m 0 c).arrAt_eq_of_cover 3 (result m c) (fun t _ => flushed_eq m c t) covered

/-- The kernel's run, read: the result array at `score` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ScoreValue

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.RefScore.lean ====
/-
  The reference program computes `score`.

  Read one operation at a time, the reference forms  1 / (1 + e^(-v))  with
      v (r, s) = Σ_d (Σ_k x[r,k] · wᵀ[k,d]) · yᵀ[d,s],
  where wᵀ and yᵀ are the transposes it makes first, so wᵀ[k,d] = w[d,k] and yᵀ[d,s] = y[s,d].  The inner sum is
  the projected row, v is its inner product with row s of y, and the quotient with the literal 1.0 in both places
  is the logistic function on every extended real.
-/
import proofs.«100877_j70171175682175_2_alg».proof.Proof.Gen.ReferenceIdeal.Read
import proofs.«100877_j70171175682175_2_alg».proof.Proof.ScoreSpec
import proofs.«100877_j70171175682175_2_alg».proof.Proof.LibLogistic

noncomputable section

namespace Cert.ReferenceIdeal.RefScore

open Cert.ReferenceIdeal Cert.ReferenceIdeal.Read Idealize.ShloMosaic Idealize.ShloMosaic.ValueIdx

/-- The left operand of the second product is read at (r, d), and inside it x at (r, k). -/
theorem left_left (i : S8192x8192.Idx) (d k : Fin 256) :
    lidx_main_v1 (lidx_main_v3 i d) k = ix2 (i 0) k :=
  funext fun a => Fin.ext (by match a with | ⟨0, _⟩ => rfl | ⟨1, _⟩ => rfl)

/-- The transposed w is read at (k, d), that is w at (d, k). -/
theorem left_right (i : S8192x8192.Idx) (d k : Fin 256) :
    idx_main_v0 (ridx_main_v1 (lidx_main_v3 i d) k) = ix2 d k :=
  funext fun a => Fin.ext (by match a with | ⟨0, _⟩ => rfl | ⟨1, _⟩ => rfl)

/-- The transposed y is read at (d, s), that is y at (s, d). -/
theorem right (i : S8192x8192.Idx) (d : Fin 256) :
    idx_main_v2 (ridx_main_v3 i d) = ix2 (i 1) d :=
  funext fun a => Fin.ext (by match a with | ⟨0, _⟩ => rfl | ⟨1, _⟩ => rfl)

/-- The reference's last stage, at the ideal instance, is `score` of its three arguments. -/
theorem result_eq_score (x0 x1 : S8192x256.Idx → EReal) (x2 : S256x256.Idx → EReal) :
    val_main_v9 (F := Ideal) x0 x1 x2 = Cert.Score.score x0 x1 x2 := by
  funext i
  rw [val_main_v9_apply, val_main_v8_apply, val_main_cst_0_apply, val_main_v7_apply, val_main_v6_apply,
    val_main_cst_apply, val_main_v5_apply, val_main_v4_apply, val_main_v3_apply]
  simp only [val_main_v1_apply, val_main_v2_apply, val_main_v0_apply, left_left, left_right, right]
  show Ideal.div (Ideal.ofBits .f32 0x3F800000#32) (Ideal.ofBits .f32 0x3F800000#32 + Ideal.exp (-(_))) = _
  rw [Cert.Logistic.one_div_one_add_exp_neg]
  rfl

end Cert.ReferenceIdeal.RefScore

end
-- ==== Proof.lean ====
/-
  The kernel and its reference compute the same array over the extended reals.

  For x, y of 8192 rows by 256 columns and a 256 by 256 matrix w, both programs return, at (r, s),
      logistic (Σ_d (Σ_k x[r,k] · w[d,k]) · y[s,d])
  (ScoreSpec.lean: `score`).  The reference forms x·wᵀ and then (x·wᵀ)·yᵀ on the whole arrays and applies
  1 / (1 + e^(-v)), which is the logistic function on every extended real (RefScore.lean).  The kernel walks an
  8 × 8 grid of 1024 × 1024 output blocks: at the first point of each row of the grid it stores the projection of
  its 1024 rows of x in a buffer it carries along the row, and at every point it multiplies that buffer by the
  transpose of 1024 rows of y and stores the logistic of the product (BodyValues.lean, BodyEntries.lean); along a
  row the carried buffer keeps the projected rows (CarriedProjection.lean), so each block is `score` on its rows
  and columns, and the 64 blocks tile the result (ScoreBlocks.lean).  The two sums are taken in the same
  association on both sides and a change of float format is the identity on extended reals, so no law of
  arithmetic beyond the logistic identity is used, and the finiteness of the inputs is never opened.
  The idealization rewrote nothing, so the kernel's idealized text is its own text read over the extended reals.
-/
import proofs.«100877_j70171175682175_2_alg».proof.Defs
import proofs.«100877_j70171175682175_2_alg».proof.Proof.Gen.Kernel
import proofs.«100877_j70171175682175_2_alg».proof.Proof.Gen.Kernel.Skeleton
import proofs.«100877_j70171175682175_2_alg».proof.Proof.Gen.Kernel.Launch
import proofs.«100877_j70171175682175_2_alg».proof.Proof.Gen.Kernel.Points
import proofs.«100877_j70171175682175_2_alg».proof.Proof.Gen.Kernel.Frame
import proofs.«100877_j70171175682175_2_alg».proof.Proof.Gen.KernelIdeal
import proofs.«100877_j70171175682175_2_alg».proof.Proof.Gen.KernelIdeal.Skeleton
import proofs.«100877_j70171175682175_2_alg».proof.Proof.Gen.KernelIdeal.Launch
import proofs.«100877_j70171175682175_2_alg».proof.Proof.Gen.KernelIdeal.Points
import proofs.«100877_j70171175682175_2_alg».proof.Proof.Gen.KernelIdeal.Frame
import proofs.«100877_j70171175682175_2_alg».proof.Proof.Gen.ReferenceIdeal
import proofs.«100877_j70171175682175_2_alg».proof.Proof.Gen.Pre_finite_inputs
import proofs.«100877_j70171175682175_2_alg».proof.Proof.Gen.KernelIdeal.Value
import proofs.«100877_j70171175682175_2_alg».proof.Proof.Gen.ReferenceIdeal.Run
import proofs.«100877_j70171175682175_2_alg».proof.Proof.Gen.ReferenceIdeal.Read
import proofs.«100877_j70171175682175_2_alg».proof.Proof.ScoreBlocks
import proofs.«100877_j70171175682175_2_alg».proof.Proof.RefScore
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at `score` of its arguments, and the reference's at
    `score` of arguments that agree with them. -/
theorem algebraic : Cert.algebraic_KernelIdeal_ReferenceIdeal := by
  intro m ρ m' ρ' _ hagree
  refine ⟨fun c => Cert.KernelIdeal.ScoreValue.result m c, Cert.KernelIdeal.ScoreValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefScore.result_eq_score,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
